-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 105
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x1, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S50000x64, .f32⟩
  | .hbm, ⟨104, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x64, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x64, .f32⟩
  | .hbm, ⟨84, _⟩ => ⟨S850000x1, .f32⟩
  | .hbm, ⟨85, _⟩ => ⟨S850000x64, .f32⟩
  | .hbm, ⟨86, _⟩ => ⟨S850000x64, .f32⟩
  | .hbm, ⟨87, _⟩ => ⟨S_, .f32⟩
  | .hbm, ⟨88, _⟩ => ⟨S50000x64, .f32⟩
  | .hbm, ⟨89, _⟩ => ⟨S850000x1, .i32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x64, .f32⟩
  | .hbm, ⟨104, _⟩ => ⟨S850000x1, .f32⟩
  | .hbm, ⟨105, _⟩ => ⟨S850000x64, .f32⟩
  | .hbm, ⟨106, _⟩ => ⟨S850000x64, .f32⟩
  | .hbm, ⟨107, _⟩ => ⟨S_, .f32⟩
  | .hbm, ⟨108, _⟩ => ⟨S50000x64, .f32⟩
  | .hbm, ⟨109, _⟩ => ⟨S850000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.WholeRun.lean ====
/-
  The kernel program's run, with its two results read.

  The program is ten segments: stretches of host operations and five kernel launches. The segments' run ends with every
  buffer that is not a staging buffer at the last boundary's contents — the fold of the host operations and of each
  launch's written-back blocks over the launch memory. Read at the two result arrays and at the nine arguments (which no
  segment writes), that is: every weakly fair execution terminates, faults nowhere, leaves the arguments as launched and
  each result array at the fold's value there.
-/
import proofs.«156341_j20289425506514_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; each result array ends at the last
    boundary's contents and each argument as launched. -/
theorem run_results : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.WholeRun

end
-- ==== Proof.EntryValues.lean ====
/-
  What the edge bookkeeping holds when the first kernel launch is entered.

  Before any dense layer the program prepares, from the edge list and the edge weights alone: the source and destination
  of every edge with one self-loop per node appended; the weights with a 1 appended per self-loop; each node's weighted
  in-degree (a scatter-add of the weights by destination); its inverse square root where the degree is positive and 0
  elsewhere; and for each edge the product  dis[src] · w · dis[dst]  — the symmetric normalisation coefficient.
  The reference program computes the same quantities by the same operations in the same order, so stage by stage the
  kernel program's buffers hold the reference's stage values of the two arguments they depend on. The stretch is read in
  its three pieces — up to the degree test, the selection, the coefficients — each from the values the piece before left.
-/
import proofs.«156341_j20289425506514_1_alg».proof.Proof.Gen.KernelIdeal.Frame
import proofs.«156341_j20289425506514_1_alg».proof.Proof.Gen.ReferenceIdeal.Read
import Idealize.ShloMosaic.Lib.StableHlo.Run

set_option maxRecDepth 16384

noncomputable section

namespace Cert.KernelIdeal.EntryValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first piece: sources, destinations, weights, the degree test and the inverse roots -/

theorem sources_1 (c : Dev nD) :
    W1 m ρ c (Proc.devRef .tc main_v5) = Cert.ReferenceIdeal.Read.val_main_v5 (F := Ideal) (m ((c.tc : Thread nD τ).loc main_arg1)) := by
  show StableHlo.after hostOps0 (W0 m ρ c) (Proc.devRef .tc main_v5) = _
  after_results
  rfl

theorem destinations_1 (c : Dev nD) :
    W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results
  rfl

theorem weights_1 (c : Dev nD) :
    W1 m ρ c (Proc.devRef .tc main_v8) = Cert.ReferenceIdeal.Read.val_main_v8 (F := Ideal) (m ((c.tc : Thread nD τ).loc main_arg2)) := by
  show StableHlo.after hostOps0 (W0 m ρ c) (Proc.devRef .tc main_v8) = _
  after_results
  rfl

theorem degree_positive_1 (c : Dev nD) :
    W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13) = _
  after_results
  rfl

theorem inverse_roots_1 (c : Dev nD) :
    W1 m ρ c (Proc.devRef .tc main_v14) = Cert.ReferenceIdeal.Read.val_main_v14 (F := Ideal) (m ((c.tc : Thread nD τ).loc main_arg1)) (m ((c.tc : Thread nD τ).loc main_arg2)) := by
  show StableHlo.after hostOps0 (W0 m ρ c) (Proc.devRef .tc main_v14) = _
  after_results
  rfl

theorem zero_1 (c : Dev nD) :
    W1 m ρ c (Proc.devRef .tc main_cst_2) = Cert.ReferenceIdeal.Read.val_main_cst_2 (F := Ideal) := by
  show StableHlo.after hostOps0 (W0 m ρ c) (Proc.devRef .tc main_cst_2) = _
  after_results
  rfl

/-! ## After the selection: the inverse root where the degree is positive, 0 elsewhere -/

/-- The three operations of the selection, from whatever the buffers hold before them. -/
theorem selection_from (U : Valuation τ sig (Elt Ideal)) :
    StableHlo.after hostOps0_1 U (Proc.devRef .tc main_v15)
      = select (U (Proc.devRef .tc main_v13)) (U (Proc.devRef .tc main_v14))
          (broadcastInDim S50000 ![] bcast_S_S50000 (U (Proc.devRef .tc main_cst_2))) := by
  after_results
  rfl

theorem guarded_roots_2 (c : Dev nD) :
    W2 m ρ c (Proc.devRef .tc main_v15) = Cert.ReferenceIdeal.Read.val_main_v15 (F := Ideal) (m ((c.tc : Thread nD τ).loc main_arg1)) (m ((c.tc : Thread nD τ).loc main_arg2)) := by
  show StableHlo.after hostOps0_1 (W1 m ρ c) (Proc.devRef .tc main_v15) = _
  rw [selection_from, degree_positive_1, inverse_roots_1, zero_1]
  rfl

/-- The selection writes none of the sources, destinations or weights. -/
theorem selection_keeps (U : Valuation τ sig (Elt Ideal)) :
    StableHlo.after hostOps0_1 U (Proc.devRef .tc main_v5) = U (Proc.devRef .tc main_v5)
    ∧ StableHlo.after hostOps0_1 U (Proc.devRef .tc main_v6) = U (Proc.devRef .tc main_v6)
    ∧ StableHlo.after hostOps0_1 U (Proc.devRef .tc main_v8) = U (Proc.devRef .tc main_v8) := by
  refine ⟨?_, ?_, ?_⟩ <;> (after_results <;> rfl)

theorem sources_2 (c : Dev nD) :
    W2 m ρ c (Proc.devRef .tc main_v5) = Cert.ReferenceIdeal.Read.val_main_v5 (F := Ideal) (m ((c.tc : Thread nD τ).loc main_arg1)) :=
  ((selection_keeps (W1 m ρ c)).1).trans (sources_1 m ρ c)

theorem destinations_2 (c : Dev nD) :
    W2 m ρ c (Proc.devRef .tc main_v6) = Cert.ReferenceIdeal.Read.val_main_v6 (F := Ideal) (m ((c.tc : Thread nD τ).loc main_arg1)) :=
  ((selection_keeps (W1 m ρ c)).2.1).trans (destinations_1 m ρ c)

theorem weights_2 (c : Dev nD) :
    W2 m ρ c (Proc.devRef .tc main_v8) = Cert.ReferenceIdeal.Read.val_main_v8 (F := Ideal) (m ((c.tc : Thread nD τ).loc main_arg2)) :=
  ((selection_keeps (W1 m ρ c)).2.2).trans (weights_1 m ρ c)

/-! ## At the first launch's entry: the coefficients, and the sources and destinations still there -/

set_option maxHeartbeats 1000000 in
theorem coefficients_3 (c : Dev nD) :
    W3 m ρ c (Proc.devRef .tc main_v31) = Cert.ReferenceIdeal.Read.val_main_v31 (F := Ideal) (m ((c.tc : Thread nD τ).loc main_arg1)) (m ((c.tc : Thread nD τ).loc main_arg2)) := by
  have h15 := guarded_roots_2 m ρ c
  have h5 := sources_2 m ρ c
  have h6 := destinations_2 m ρ c
  have h8 := weights_2 m ρ c
  show StableHlo.after hostOps0_2 (W2 m ρ c) (Proc.devRef .tc main_v31) = _
  generalize W2 m ρ c = U at h15 h5 h6 h8 ⊢
  after_results
  rw [h15, h5, h6, h8]
  rfl

/-- The coefficient piece writes neither the sources nor the destinations. -/
theorem coefficients_keep (U : Valuation τ sig (Elt Ideal)) :
    StableHlo.after hostOps0_2 U (Proc.devRef .tc main_v5) = U (Proc.devRef .tc main_v5)
    ∧ StableHlo.after hostOps0_2 U (Proc.devRef .tc main_v6) = U (Proc.devRef .tc main_v6) := by
  refine ⟨?_, ?_⟩ <;> (after_results <;> rfl)

theorem sources_3 (c : Dev nD) :
    W3 m ρ c (Proc.devRef .tc main_v5) = Cert.ReferenceIdeal.Read.val_main_v5 (F := Ideal) (m ((c.tc : Thread nD τ).loc main_arg1)) :=
  ((coefficients_keep (W2 m ρ c)).1).trans (sources_2 m ρ c)

theorem destinations_3 (c : Dev nD) :
    W3 m ρ c (Proc.devRef .tc main_v6) = Cert.ReferenceIdeal.Read.val_main_v6 (F := Ideal) (m ((c.tc : Thread nD τ).loc main_arg1)) :=
  ((coefficients_keep (W2 m ρ c)).2).trans (destinations_2 m ρ c)

end Cert.KernelIdeal.EntryValues

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.HiddenProduct.lean ====
/-
  The first dense layer, block by block.

  The node-feature matrix X is 50000 × 128 and the weight W₁ is 128 × 128. The grid has ten points; point t reads rows
  5000·t … 5000·t + 4999 of X and all of W₁, multiplies the two blocks, and writes the 5000 × 128 result over the same rows
  of the output. Row r of a matrix product depends only on row r of the left factor:
      (X·W₁)(r, q) = ∑ₖ X(r, k) · W₁(k, q),
  so the block a point writes is the block of rows of the whole product X·W₁, and the ten blocks tile the output. Hence
  after the ten points the output array IS X·W₁ — stated here for whatever the arrays hold when the region is entered.
-/
import proofs.«156341_j20289425506514_1_alg».proof.Proof.Gen.KernelIdeal.Frame
import proofs.«156341_j20289425506514_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.HiddenProduct

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The whole product `A·B` of a 50000 × 128 by a 128 × 128 matrix, as the host computes it. -/
abbrev wholeProduct (A : Vec Ideal S50000x128 .f32) (B : Vec Ideal S128x128 .f32) : Vec Ideal S50000x128 .f32 :=
  Host.dotGeneral (F := Ideal) (φ₁ := .f32) (φ₂ := .f32) (DotDims.plain 50000 128 128) none A B

theorem zero_offsets : (![0, 0] : Fin 2 → Nat) = fun _ => 0 := funext fun a => by fin_cases a <;> rfl

/-- One entry of what a point computes: with `x0` holding row `r` of `A` in its row `p` and `x1` holding all of `B`, entry
    `(p, q)` of the block product is entry `(r, q)` of the whole product — both are `∑ₖ A(r, k) · B(k, q)`. -/
theorem block_entry (A : Vec Ideal S50000x128 .f32) (B x1 : Vec Ideal S128x128 .f32) (x0 : Vec Ideal S5000x128 .f32)
    (p : Fin 5000) (q : Fin 128) (r : Fin 50000)
    (hrow : ∀ k : Fin 128, x0 (ix2 p k) = A (ix2 r k)) (hB : x1 = B) :
    k0_pay1 x0 x1 (ix2 p q) = wholeProduct A B (ix2 r q) := by
  subst hB
  refine Eq.trans ?_ (Cert.PlainProduct.dotGeneral_plain_apply' (DotDims.plain 50000 128 128) rfl none A x1 r q).symm
  unfold k0_pay1
  refine (Cert.PlainProduct.matmul_plain_apply dot_S5000x128_S128x128_S5000x128_1_0_0_1_n_n rfl none _ _ p q).trans ?_
  refine Finset.sum_congr rfl fun k _ => ?_
  show x0 (ix2 p k) * x1 (ix2 k q) = _
  rw [hrow k]

/-- Where the printed index maps put each window's block, decided over the ten grid points: the left factor's block and
    the output's block sit at the same block-row and at block-column 0; the weight's block is the whole weight. -/
theorem block_places : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten block-rows of the output is some point's. -/
theorem every_block_row : ∀ b : Fin 10, ∃ t : Fin cfg0.N, win0_2.index t = ![b.val, 0] :=
  (by decide +kernel : ∀ b : Fin 10, ∃ t : Fin grid0.N, win0_2.index t = ![b.val, 0])

/-- What point `t` writes back is block `t` of the whole product of the two arrays as the region finds them. -/
theorem written_eq (c : Dev nD) (t : Fin cfg0.N) :
    (dat0 V c).flushed 2 t = ((cfg0.win 2).blk t).view.read (Elt Ideal)
      (wholeProduct (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_places t
  funext j
  have hj0 : (j 0).val < 5000 := (j 0).isLt
  have hj1 : (j 1).val < 128 := (j 1).isLt
  have hrow_lt : win0_2.index t (0 : Fin 2) * 5000 + 1 * (j 0).val < 50000 := by omega
  have hj : j = ix2 (⟨(j 0).val, hj0⟩ : Fin 5000) (⟨(j 1).val, hj1⟩ : Fin 128) := by
    funext a; match a with | ⟨0, _⟩ => rfl | ⟨1, _⟩ => rfl
  have hi : ((cfg0.win 2).blk t).view.emb j
      = ix2 (⟨win0_2.index t (0 : Fin 2) * 5000 + 1 * (j 0).val, hrow_lt⟩ : Fin 50000) (⟨(j 1).val, hj1⟩ : Fin 128) := by
    funext a; apply Fin.ext
    match a with
    | ⟨0, _⟩ => rfl
    | ⟨1, _⟩ => show win0_2.index t (1 : Fin 2) * 128 + 1 * (j 1).val = (j 1).val; omega
  show k0_pay1 (iblk0 V c 0 t) (iblk0 V c 1 t) j
    = wholeProduct (V c main_arg0) (V c main_arg3) (((cfg0.win 2).blk t).view.emb j)
  rw [hi]
  refine (congrArg (k0_pay1 (iblk0 V c 0 t) (iblk0 V c 1 t)) hj).trans ?_
  refine block_entry (V c main_arg0) (V c main_arg3) (iblk0 V c 1 t) (iblk0 V c 0 t) _ _ _ ?_ ?_
  · intro k
    show V c main_arg0 (((cfg0.win 0).blk t).view.emb (ix2 (⟨(j 0).val, hj0⟩ : Fin 5000) k)) = V c main_arg0 _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the output array is in point `t`'s block iff each coordinate is in the block's range on its axis. -/
theorem in_block_iff (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The ten blocks tile the output: row `r` is in the block of the point at block-row `r / 5000`. -/
theorem every_index_written (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block_iff]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the ten points the output array is the whole product of the two arrays the region found. -/
theorem array_eq (c : Dev nD) :
    (dat0 V c).arrAt 2 cfg0.N = wholeProduct (V c main_arg0) (V c main_arg3) :=
  (dat0 V c).arrAt_eq_of_cover 2 _ (fun t _ => written_eq V c t) every_index_written

end Cert.KernelIdeal.HiddenProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.HiddenBias.lean ====
/-
  The hidden layer's bias and clamp, block by block.

  The aggregated features Z are 50000 × 128 and the bias b has 128 entries. Point t of the ten-point grid reads rows
  5000·t … 5000·t + 4999 of Z and all of b and writes, over the same rows of the output,
      H(r, q) = max (Z(r, q) + b(q), 0).
  Each entry depends on the one entry of Z at the same place and on b at its column, so the block a point writes is the
  block of rows of the whole array max(Z + b, 0) — here spelt with the host's own operations: b made a row, the row
  repeated down the 50000 rows, the sum, the maximum with the zero splat — and the ten blocks tile the output.
-/
import proofs.«156341_j20289425506514_1_alg».proof.Proof.Gen.KernelIdeal.Frame
import proofs.«156341_j20289425506514_1_alg».proof.Proof.Gen.ReferenceIdeal.Read
import proofs.«156341_j20289425506514_1_alg».proof.Proof.LibRowVector
import Idealize.ShloMosaic.Lib.Pipeline.Value
import Idealize.ShloMosaic.Lib.ValueIdx
import Idealize.ShloMosaic.PureOps.Ideal.Laws

set_option maxRecDepth 16384

noncomputable section

namespace Cert.KernelIdeal.HiddenBias

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The whole array `max (Z + b, 0)`, by the host's operations: the bias made a row and repeated down the rows, added,
    and the maximum taken with the zero splat. -/
abbrev clampedSum (Z : Vec Ideal S50000x128 .f32) (b : Vec Ideal S128 .f32) : Vec Ideal S50000x128 .f32 :=
  maximumf (F := Ideal) (φ := .f32) (addf (F := Ideal) (φ := .f32) Z (Cert.ReferenceIdeal.Read.val_main_v47 (F := Ideal) b))
    (Cert.ReferenceIdeal.Read.val_main_call1_v0 (F := Ideal))

theorem zero_offsets : (![0, 0] : Fin 2 → Nat) = fun _ => 0 := funext fun a => by fin_cases a <;> rfl
theorem zero_offset : (![0] : Fin 1 → Nat) = fun _ => 0 := funext fun a => by fin_cases a; rfl

/-- The host's repeated bias row at `(r, q)` is the bias at `q`. -/
theorem bias_rows_apply (b : Vec Ideal S128 .f32) (r : Fin 50000) (q : Fin 128) :
    Cert.ReferenceIdeal.Read.val_main_v47 (F := Ideal) b (ix2 r q) = b (ix1 q) := by
  rw [Cert.ReferenceIdeal.Read.val_main_v47_apply, Cert.ReferenceIdeal.Read.val_main_v46_apply]
  refine congrArg b ?_
  funext a; match a with | ⟨0, _⟩ => rfl

/-- One entry of what a point computes: with `x0` holding `Z (r, q)` at `(p, q)` and `x1` holding all of `b`, the
    block's entry `(p, q)` is the whole array's entry `(r, q)`: both are `max (Z (r, q) + b q, 0)`. -/
theorem block_entry (Z : Vec Ideal S50000x128 .f32) (b x1 : Vec Ideal S128 .f32) (x0 : Vec Ideal S5000x128 .f32)
    (p : Fin 5000) (q : Fin 128) (r : Fin 50000) (hx : x0 (ix2 p q) = Z (ix2 r q)) (hb : x1 = b) :
    k1_pay1 x0 x1 (ix2 p q) = clampedSum Z b (ix2 r q) := by
  subst hb
  have hk : k1_pay1 x0 x1 (ix2 p q) = max (x0 (ix2 p q) + x1 (ix1 q)) (Ideal.ofBits .f32 0x00000000#32) := by
    unfold k1_pay1
    show max (shapeCast S5000x128 x0 shapeCasts_S5000x128_S5000x128 (ix2 p q)
        + broadcastTo S5000x128 (shapeCast S1x128 x1 shapeCasts_S128_S1x128) broadcasts_S1x128_S5000x128 (ix2 p q))
        (Ideal.ofBits .f32 0x00000000#32) = _
    rw [shapeCast_self, Cert.RowVector.rowBroadcast_apply]
  have hr : clampedSum Z x1 (ix2 r q) = max (Z (ix2 r q) + x1 (ix1 q)) (Ideal.ofBits .f32 0x00000000#32) := by
    show max (Z (ix2 r q) + Cert.ReferenceIdeal.Read.val_main_v47 (F := Ideal) x1 (ix2 r q))
        (Cert.ReferenceIdeal.Read.val_main_call1_v0 (F := Ideal) (ix2 r q)) = _
    rw [bias_rows_apply, Cert.ReferenceIdeal.Read.val_main_call1_v0_apply]
    rfl
  rw [hk, hr, hx]

/-- Where the printed index maps put each window's block, decided over the ten grid points. -/
theorem block_places : ∀ t : Fin cfg1.N, win1_0.index t (0 : Fin 2) = win1_2.index t (0 : Fin 2)
    ∧ win1_0.index t (1 : Fin 2) = 0
    ∧ win1_1.index t (0 : Fin 1) = 0
    ∧ win1_2.index t (1 : Fin 2) = 0 ∧ win1_2.index t (0 : Fin 2) ≤ 9 :=
  (by decide +kernel : ∀ t : Fin grid1.N, _)

/-- Every one of the ten block-rows of the output is some point's. -/
theorem every_block_row : ∀ b : Fin 10, ∃ t : Fin cfg1.N, win1_2.index t = ![b.val, 0] :=
  (by decide +kernel : ∀ b : Fin 10, ∃ t : Fin grid1.N, win1_2.index t = ![b.val, 0])

/-- What point `t` writes back is block `t` of `max (Z + b, 0)` of the two arrays as the region finds them. -/
theorem written_eq (c : Dev nD) (t : Fin cfg1.N) :
    (dat1 V c).flushed 2 t = ((cfg1.win 2).blk t).view.read (Elt Ideal) (clampedSum (V c main_v45) (V c main_arg4)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128) zero_offset]
  obtain ⟨e0, e1, e2, e3, e4⟩ := block_places t
  funext j
  have hj0 : (j 0).val < 5000 := (j 0).isLt
  have hj1 : (j 1).val < 128 := (j 1).isLt
  have hrow_lt : win1_2.index t (0 : Fin 2) * 5000 + 1 * (j 0).val < 50000 := by omega
  have hj : j = ix2 (⟨(j 0).val, hj0⟩ : Fin 5000) (⟨(j 1).val, hj1⟩ : Fin 128) := by
    funext a; match a with | ⟨0, _⟩ => rfl | ⟨1, _⟩ => rfl
  have hi : ((cfg1.win 2).blk t).view.emb j
      = ix2 (⟨win1_2.index t (0 : Fin 2) * 5000 + 1 * (j 0).val, hrow_lt⟩ : Fin 50000) (⟨(j 1).val, hj1⟩ : Fin 128) := by
    funext a; apply Fin.ext
    match a with
    | ⟨0, _⟩ => rfl
    | ⟨1, _⟩ => show win1_2.index t (1 : Fin 2) * 128 + 1 * (j 1).val = (j 1).val; omega
  show k1_pay1 (iblk1 V c 0 t) (iblk1 V c 1 t) j
    = clampedSum (V c main_v45) (V c main_arg4) (((cfg1.win 2).blk t).view.emb j)
  rw [hi]
  refine (congrArg (k1_pay1 (iblk1 V c 0 t) (iblk1 V c 1 t)) hj).trans ?_
  refine block_entry (V c main_v45) (V c main_arg4) (iblk1 V c 1 t) (iblk1 V c 0 t) _ _ _ ?_ ?_
  · show V c main_v45 (((cfg1.win 0).blk t).view.emb (ix2 (⟨(j 0).val, hj0⟩ : Fin 5000) (⟨(j 1).val, hj1⟩ : Fin 128))) = V c main_v45 _
    refine congrArg (V c main_v45) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = (j 1).val; omega
  · funext y
    show V c main_arg4 (((cfg1.win 1).blk t).view.emb y) = V c main_arg4 y
    refine congrArg (V c main_arg4) ?_
    funext a; apply Fin.ext
    match a with
    | ⟨0, _⟩ => show win1_1.index t (0 : Fin 1) * 128 + 1 * (y 0).val = (y 0).val; omega

/-- An index of the output array is in point `t`'s block iff each coordinate is in the block's range on its axis. -/
theorem in_block_iff (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- The ten blocks tile the output: row `r` is in the block of the point at block-row `r / 5000`. -/
theorem every_index_written (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := every_block_row ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_block_iff]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the ten points the output array is `max (Z + b, 0)` of the two arrays the region found. -/
theorem array_eq (c : Dev nD) :
    (dat1 V c).arrAt 2 cfg1.N = clampedSum (V c main_v45) (V c main_arg4) :=
  (dat1 V c).arrAt_eq_of_cover 2 _ (fun t _ => written_eq V c t) every_index_written

end Cert.KernelIdeal.HiddenBias

end
-- ==== Proof.HeadProducts.lean ====
/-
  The two output heads' dense layers, block by block.

  The hidden features H are 50000 × 128; the two head weights, for the mean and for the log-deviation, are each
  128 × 64. Point t of the ten-point grid reads rows 5000·t … 5000·t + 4999 of H once and both weights whole, forms the two
  block products, and writes each 5000 × 64 result over the same rows of its own output. As for any matrix product, row r of
  H·W depends only on row r of H:  (H·W)(r, q) = ∑ₖ H(r, k) · W(k, q).  So each written block is the block of rows of the
  whole product, the ten blocks tile each output, and after the ten points the two outputs are H·W_mean and H·W_logdev.
-/
import proofs.«156341_j20289425506514_1_alg».proof.Proof.Gen.KernelIdeal.Frame
import proofs.«156341_j20289425506514_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.HeadProducts

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The whole product `A·B` of a 50000 × 128 by a 128 × 64 matrix, as the host computes it. -/
abbrev wholeProduct (A : Vec Ideal S50000x128 .f32) (B : Vec Ideal S128x64 .f32) : Vec Ideal S50000x64 .f32 :=
  Host.dotGeneral (F := Ideal) (φ₁ := .f32) (φ₂ := .f32) (DotDims.plain 50000 128 64) none A B

theorem zero_offsets : (![0, 0] : Fin 2 → Nat) = fun _ => 0 := funext fun a => by fin_cases a <;> rfl

/-- The left factor as both products read it — recast to its own shape and narrowed, both the identity on extended reals —
    is the loaded block itself. -/
theorem left_entry (x0 : Vec Ideal S5000x128 .f32) (i : S5000x128.Idx) : k2_pay1 x0 i = x0 i := by
  unfold k2_pay1
  show shapeCast S5000x128 x0 shapeCasts_S5000x128_S5000x128 i = x0 i
  rw [shapeCast_self]

/-- Where the printed index maps put each window's block, decided over the ten grid points: the left factor's block and
    both outputs' blocks sit at the same block-row and at block-column 0; each weight's block is the whole weight. -/
theorem block_places : ∀ t : Fin cfg2.N, win2_0.index t (0 : Fin 2) = win2_3.index t (0 : Fin 2)
    ∧ win2_0.index t (0 : Fin 2) = win2_4.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_4.index t (1 : Fin 2) = 0
    ∧ win2_0.index t (0 : Fin 2) ≤ 9 :=
  (by decide +kernel : ∀ t : Fin grid2.N, _)

/-- Every one of the ten block-rows of the mean head's output is some point's. -/
theorem every_block_row_mean : ∀ b : Fin 10, ∃ t : Fin cfg2.N, win2_3.index t = ![b.val, 0] :=
  (by decide +kernel : ∀ b : Fin 10, ∃ t : Fin grid2.N, win2_3.index t = ![b.val, 0])

/-- Every one of the ten block-rows of the log-deviation head's output is some point's. -/
theorem every_block_row_logdev : ∀ b : Fin 10, ∃ t : Fin cfg2.N, win2_4.index t = ![b.val, 0] :=
  (by decide +kernel : ∀ b : Fin 10, ∃ t : Fin grid2.N, win2_4.index t = ![b.val, 0])

/-! ## The mean head: H · W_mean -/

/-- One entry of the mean head's block product: entry `(p, q)` of the block product is entry `(r, q)` of the whole
    product when row `p` of the block is row `r` of `A`. -/
theorem block_entry_mean (A : Vec Ideal S50000x128 .f32) (B x1 : Vec Ideal S128x64 .f32) (x0 : Vec Ideal S5000x128 .f32)
    (p : Fin 5000) (q : Fin 64) (r : Fin 50000)
    (hrow : ∀ k : Fin 128, x0 (ix2 p k) = A (ix2 r k)) (hB : x1 = B) :
    k2_pay2 x0 x1 (ix2 p q) = wholeProduct A B (ix2 r q) := by
  subst hB
  refine Eq.trans ?_ (Cert.PlainProduct.dotGeneral_plain_apply' (DotDims.plain 50000 128 64) rfl none A x1 r q).symm
  unfold k2_pay2
  refine (Cert.PlainProduct.matmul_plain_apply dot_S5000x128_S128x64_S5000x64_1_0_0_1_n_n rfl none _ _ p q).trans ?_
  refine Finset.sum_congr rfl fun k _ => ?_
  show k2_pay1 x0 (ix2 p k) * x1 (ix2 k q) = _
  rw [left_entry, hrow k]

/-- What point `t` writes back for the mean head is block `t` of the whole product of the two arrays as the region
    finds them. -/
theorem written_eq_mean (c : Dev nD) (t : Fin cfg2.N) :
    (dat2 V c).flushed 3 t = ((cfg2.win 3).blk t).view.read (Elt Ideal) (wholeProduct (V c main_v46) (V c main_arg5)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x64) zero_offsets]
  obtain ⟨e0, e1, e2, e3, e4, e5, e6, e7, e8, e9⟩ := block_places t
  funext j
  have hj0 : (j 0).val < 5000 := (j 0).isLt
  have hj1 : (j 1).val < 64 := (j 1).isLt
  have hrow_lt : win2_3.index t (0 : Fin 2) * 5000 + 1 * (j 0).val < 50000 := by omega
  have hj : j = ix2 (⟨(j 0).val, hj0⟩ : Fin 5000) (⟨(j 1).val, hj1⟩ : Fin 64) := by
    funext a; match a with | ⟨0, _⟩ => rfl | ⟨1, _⟩ => rfl
  have hi : ((cfg2.win 3).blk t).view.emb j
      = ix2 (⟨win2_3.index t (0 : Fin 2) * 5000 + 1 * (j 0).val, hrow_lt⟩ : Fin 50000) (⟨(j 1).val, hj1⟩ : Fin 64) := by
    funext a; apply Fin.ext
    match a with
    | ⟨0, _⟩ => rfl
    | ⟨1, _⟩ => show win2_3.index t (1 : Fin 2) * 64 + 1 * (j 1).val = (j 1).val; omega
  show k2_pay2 (iblk2 V c 0 t) (iblk2 V c 1 t) j
    = wholeProduct (V c main_v46) (V c main_arg5) (((cfg2.win 3).blk t).view.emb j)
  rw [hi]
  refine (congrArg (k2_pay2 (iblk2 V c 0 t) (iblk2 V c 1 t)) hj).trans ?_
  refine block_entry_mean (V c main_v46) (V c main_arg5) (iblk2 V c 1 t) (iblk2 V c 0 t) _ _ _ ?_ ?_
  · intro k
    show V c main_v46 (((cfg2.win 0).blk t).view.emb (ix2 (⟨(j 0).val, hj0⟩ : Fin 5000) k)) = V c main_v46 _
    refine congrArg (V c main_v46) ?_
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · funext y
    show V c main_arg5 (((cfg2.win 1).blk t).view.emb y) = V c main_arg5 y
    refine congrArg (V c main_arg5) ?_
    funext a; apply Fin.ext
    match a with
    | ⟨0, _⟩ => show win2_1.index t (0 : Fin 2) * 128 + 1 * (y 0).val = (y 0).val; omega
    | ⟨1, _⟩ => show win2_1.index t (1 : Fin 2) * 64 + 1 * (y 1).val = (y 1).val; omega

/-- An index of the mean head's output array is in point `t`'s block iff each coordinate is in the block's range on its
    axis. -/
theorem in_block_iff_mean (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v47_0).slice (win2_3.rect t)).set ↔ _
  rw [View.set_slice_whole, Rect.mem_set_unit]
  exact Iff.rfl

/-- The ten blocks tile the mean head's output: row `r` is in the block of the point at block-row `r / 5000`. -/
theorem every_index_written_mean (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := every_block_row_mean ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [in_block_iff_mean]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the ten points the mean head's output array is the whole product `H · W_mean` of the arrays the region found. -/
theorem array_eq_mean (c : Dev nD) :
    (dat2 V c).arrAt 3 cfg2.N = wholeProduct (V c main_v46) (V c main_arg5) :=
  (dat2 V c).arrAt_eq_of_cover 3 _ (fun t _ => written_eq_mean V c t) every_index_written_mean

/-! ## The log-deviation head: H · W_logdev. The same left block, the other weight (the third window), the other output
    (the fifth window). -/

/-- One entry of the log-deviation head's block product, as for the mean head. -/
theorem block_entry_logdev (A : Vec Ideal S50000x128 .f32) (B x2 : Vec Ideal S128x64 .f32) (x0 : Vec Ideal S5000x128 .f32)
    (p : Fin 5000) (q : Fin 64) (r : Fin 50000)
    (hrow : ∀ k : Fin 128, x0 (ix2 p k) = A (ix2 r k)) (hB : x2 = B) :
    k2_pay3 x0 x2 (ix2 p q) = wholeProduct A B (ix2 r q) := by
  subst hB
  refine Eq.trans ?_ (Cert.PlainProduct.dotGeneral_plain_apply' (DotDims.plain 50000 128 64) rfl none A x2 r q).symm
  unfold k2_pay3
  refine (Cert.PlainProduct.matmul_plain_apply dot_S5000x128_S128x64_S5000x64_1_0_0_1_n_n rfl none _ _ p q).trans ?_
  refine Finset.sum_congr rfl fun k _ => ?_
  show k2_pay1 x0 (ix2 p k) * x2 (ix2 k q) = _
  rw [left_entry, hrow k]

/-- What point `t` writes back for the log-deviation head is block `t` of the whole product of the two arrays as the
    region finds them. -/
theorem written_eq_logdev (c : Dev nD) (t : Fin cfg2.N) :
    (dat2 V c).flushed 4 t = ((cfg2.win 4).blk t).view.read (Elt Ideal) (wholeProduct (V c main_v46) (V c main_arg7)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S128x64) zero_offsets]
  obtain ⟨e0, e1, e2, e3, e4, e5, e6, e7, e8, e9⟩ := block_places t
  funext j
  have hj0 : (j 0).val < 5000 := (j 0).isLt
  have hj1 : (j 1).val < 64 := (j 1).isLt
  have hrow_lt : win2_4.index t (0 : Fin 2) * 5000 + 1 * (j 0).val < 50000 := by omega
  have hj : j = ix2 (⟨(j 0).val, hj0⟩ : Fin 5000) (⟨(j 1).val, hj1⟩ : Fin 64) := by
    funext a; match a with | ⟨0, _⟩ => rfl | ⟨1, _⟩ => rfl
  have hi : ((cfg2.win 4).blk t).view.emb j
      = ix2 (⟨win2_4.index t (0 : Fin 2) * 5000 + 1 * (j 0).val, hrow_lt⟩ : Fin 50000) (⟨(j 1).val, hj1⟩ : Fin 64) := by
    funext a; apply Fin.ext
    match a with
    | ⟨0, _⟩ => rfl
    | ⟨1, _⟩ => show win2_4.index t (1 : Fin 2) * 64 + 1 * (j 1).val = (j 1).val; omega
  show k2_pay3 (iblk2 V c 0 t) (iblk2 V c 2 t) j
    = wholeProduct (V c main_v46) (V c main_arg7) (((cfg2.win 4).blk t).view.emb j)
  rw [hi]
  refine (congrArg (k2_pay3 (iblk2 V c 0 t) (iblk2 V c 2 t)) hj).trans ?_
  refine block_entry_logdev (V c main_v46) (V c main_arg7) (iblk2 V c 2 t) (iblk2 V c 0 t) _ _ _ ?_ ?_
  · intro k
    show V c main_v46 (((cfg2.win 0).blk t).view.emb (ix2 (⟨(j 0).val, hj0⟩ : Fin 5000) k)) = V c main_v46 _
    refine congrArg (V c main_v46) ?_
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  · funext y
    show V c main_arg7 (((cfg2.win 2).blk t).view.emb y) = V c main_arg7 y
    refine congrArg (V c main_arg7) ?_
    funext a; apply Fin.ext
    match a with
    | ⟨0, _⟩ => show win2_2.index t (0 : Fin 2) * 128 + 1 * (y 0).val = (y 0).val; omega
    | ⟨1, _⟩ => show win2_2.index t (1 : Fin 2) * 64 + 1 * (y 1).val = (y 1).val; omega

/-- An index of the log-deviation head's output array is in point `t`'s block iff each coordinate is in the block's
    range on its axis. -/
theorem in_block_iff_logdev (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v47_1).slice (win2_4.rect t)).set ↔ _
  rw [View.set_slice_whole, Rect.mem_set_unit]
  exact Iff.rfl

/-- The ten blocks tile the log-deviation head's output. -/
theorem every_index_written_logdev (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := every_block_row_logdev ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [in_block_iff_logdev]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- After the ten points the log-deviation head's output array is the whole product `H · W_logdev` of the arrays the
    region found. -/
theorem array_eq_logdev (c : Dev nD) :
    (dat2 V c).arrAt 4 cfg2.N = wholeProduct (V c main_v46) (V c main_arg7) :=
  (dat2 V c).arrAt_eq_of_cover 4 _ (fun t _ => written_eq_logdev V c t) every_index_written_logdev

end Cert.KernelIdeal.HeadProducts

end
-- ==== Proof.MeanBias.lean ====
/-
  The mean head's bias, block by block.

  The aggregated mean-head features Z are 50000 × 64 and the bias b has 64 entries. Point t of the ten-point grid reads
  rows 5000·t … 5000·t + 4999 of Z and all of b and writes Z(r, q) + b(q) over the same rows of the output. Each entry
  depends on the one entry of Z at the same place and on b at its column, so a written block is the block of rows of the
  whole array Z + b — spelt with the host's own operations: b made a row, the row repeated down the 50000 rows, the sum —
  and the ten blocks tile the output.
-/
import proofs.«156341_j20289425506514_1_alg».proof.Proof.Gen.KernelIdeal.Frame
import proofs.«156341_j20289425506514_1_alg».proof.Proof.Gen.ReferenceIdeal.Read
import proofs.«156341_j20289425506514_1_alg».proof.Proof.LibRowVector
import Idealize.ShloMosaic.Lib.Pipeline.Value
import Idealize.ShloMosaic.Lib.ValueIdx
import Idealize.ShloMosaic.PureOps.Ideal.Laws

set_option maxRecDepth 16384

noncomputable section

namespace Cert.KernelIdeal.MeanBias

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The whole array `Z + b`, by the host's operations: the bias made a row and repeated down the rows, then added. -/
abbrev biasedSum (Z : Vec Ideal S50000x64 .f32) (b : Vec Ideal S64 .f32) : Vec Ideal S50000x64 .f32 :=
  addf (F := Ideal) (φ := .f32) Z (Cert.ReferenceIdeal.Read.val_main_v65 (F := Ideal) b)

theorem zero_offsets : (![0, 0] : Fin 2 → Nat) = fun _ => 0 := funext fun a => by fin_cases a <;> rfl
theorem zero_offset : (![0] : Fin 1 → Nat) = fun _ => 0 := funext fun a => by fin_cases a; rfl

/-- The host's repeated bias row at `(r, q)` is the bias at `q`. -/
theorem bias_rows_apply (b : Vec Ideal S64 .f32) (r : Fin 50000) (q : Fin 64) :
    Cert.ReferenceIdeal.Read.val_main_v65 (F := Ideal) b (ix2 r q) = b (ix1 q) := by
  rw [Cert.ReferenceIdeal.Read.val_main_v65_apply, Cert.ReferenceIdeal.Read.val_main_v64_apply]
  refine congrArg b ?_
  funext a; match a with | ⟨0, _⟩ => rfl

/-- One entry of what a point computes: with `x0` holding `Z (r, q)` at `(p, q)` and `x1` holding all of `b`, the
    block's entry `(p, q)` is the whole array's entry `(r, q)`: both are `Z (r, q) + b q`. -/
theorem block_entry (Z : Vec Ideal S50000x64 .f32) (b x1 : Vec Ideal S64 .f32) (x0 : Vec Ideal S5000x64 .f32)
    (p : Fin 5000) (q : Fin 64) (r : Fin 50000) (hx : x0 (ix2 p q) = Z (ix2 r q)) (hb : x1 = b) :
    k3_pay1 x0 x1 (ix2 p q) = biasedSum Z b (ix2 r q) := by
  subst hb
  have hk : k3_pay1 x0 x1 (ix2 p q) = x0 (ix2 p q) + x1 (ix1 q) := by
    unfold k3_pay1
    show shapeCast S5000x64 x0 shapeCasts_S5000x64_S5000x64 (ix2 p q)
        + broadcastTo S5000x64 (shapeCast S1x64 x1 shapeCasts_S64_S1x64) broadcasts_S1x64_S5000x64 (ix2 p q) = _
    rw [shapeCast_self, Cert.RowVector.rowBroadcast_apply]
  have hr : biasedSum Z x1 (ix2 r q) = Z (ix2 r q) + x1 (ix1 q) := by
    show Z (ix2 r q) + Cert.ReferenceIdeal.Read.val_main_v65 (F := Ideal) x1 (ix2 r q) = _
    rw [bias_rows_apply]
  rw [hk, hr, hx]

/-- Where the printed index maps put each window's block, decided over the ten grid points. -/
theorem block_places : ∀ t : Fin cfg3.N, win3_0.index t (0 : Fin 2) = win3_2.index t (0 : Fin 2)
    ∧ win3_0.index t (1 : Fin 2) = 0
    ∧ win3_1.index t (0 : Fin 1) = 0
    ∧ win3_2.index t (1 : Fin 2) = 0 ∧ win3_2.index t (0 : Fin 2) ≤ 9 :=
  (by decide +kernel : ∀ t : Fin grid3.N, _)

/-- Every one of the ten block-rows of the output is some point's. -/
theorem every_block_row : ∀ b : Fin 10, ∃ t : Fin cfg3.N, win3_2.index t = ![b.val, 0] :=
  (by decide +kernel : ∀ b : Fin 10, ∃ t : Fin grid3.N, win3_2.index t = ![b.val, 0])

/-- What point `t` writes back is block `t` of `Z + b` of the two arrays as the region finds them. -/
theorem written_eq (c : Dev nD) (t : Fin cfg3.N) :
    (dat3 V c).flushed 2 t = ((cfg3.win 2).blk t).view.read (Elt Ideal) (biasedSum (V c main_v60) (V c main_arg6)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S64) zero_offset]
  obtain ⟨e0, e1, e2, e3, e4⟩ := block_places t
  funext j
  have hj0 : (j 0).val < 5000 := (j 0).isLt
  have hj1 : (j 1).val < 64 := (j 1).isLt
  have hrow_lt : win3_2.index t (0 : Fin 2) * 5000 + 1 * (j 0).val < 50000 := by omega
  have hj : j = ix2 (⟨(j 0).val, hj0⟩ : Fin 5000) (⟨(j 1).val, hj1⟩ : Fin 64) := by
    funext a; match a with | ⟨0, _⟩ => rfl | ⟨1, _⟩ => rfl
  have hi : ((cfg3.win 2).blk t).view.emb j
      = ix2 (⟨win3_2.index t (0 : Fin 2) * 5000 + 1 * (j 0).val, hrow_lt⟩ : Fin 50000) (⟨(j 1).val, hj1⟩ : Fin 64) := by
    funext a; apply Fin.ext
    match a with
    | ⟨0, _⟩ => rfl
    | ⟨1, _⟩ => show win3_2.index t (1 : Fin 2) * 64 + 1 * (j 1).val = (j 1).val; omega
  show k3_pay1 (iblk3 V c 0 t) (iblk3 V c 1 t) j
    = biasedSum (V c main_v60) (V c main_arg6) (((cfg3.win 2).blk t).view.emb j)
  rw [hi]
  refine (congrArg (k3_pay1 (iblk3 V c 0 t) (iblk3 V c 1 t)) hj).trans ?_
  refine block_entry (V c main_v60) (V c main_arg6) (iblk3 V c 1 t) (iblk3 V c 0 t) _ _ _ ?_ ?_
  · show V c main_v60 (((cfg3.win 0).blk t).view.emb (ix2 (⟨(j 0).val, hj0⟩ : Fin 5000) (⟨(j 1).val, hj1⟩ : Fin 64))) = V c main_v60 _
    refine congrArg (V c main_v60) ?_
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = (j 1).val; omega
  · funext y
    show V c main_arg6 (((cfg3.win 1).blk t).view.emb y) = V c main_arg6 y
    refine congrArg (V c main_arg6) ?_
    funext a; apply Fin.ext
    match a with
    | ⟨0, _⟩ => show win3_1.index t (0 : Fin 1) * 64 + 1 * (y 0).val = (y 0).val; omega

/-- An index of the output array is in point `t`'s block iff each coordinate is in the block's range on its axis. -/
theorem in_block_iff (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v74).slice (win3_2.rect t)).set ↔ _
  rw [View.set_slice_whole, Rect.mem_set_unit]
  exact Iff.rfl

/-- The ten blocks tile the output: row `r` is in the block of the point at block-row `r / 5000`. -/
theorem every_index_written (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := every_block_row ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [in_block_iff]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the ten points the output array is `Z + b` of the two arrays the region found. -/
theorem array_eq (c : Dev nD) :
    (dat3 V c).arrAt 2 cfg3.N = biasedSum (V c main_v60) (V c main_arg6) :=
  (dat3 V c).arrAt_eq_of_cover 2 _ (fun t _ => written_eq V c t) every_index_written

end Cert.KernelIdeal.MeanBias

end
-- ==== Proof.LogDevBias.lean ====
/-
  The log-deviation head's bias, block by block.

  The aggregated log-deviation features Z are 50000 × 64 and the bias b has 64 entries. Point t of the ten-point grid reads
  rows 5000·t … 5000·t + 4999 of Z and all of b and writes Z(r, q) + b(q) over the same rows of the output. Each entry
  depends on the one entry of Z at the same place and on b at its column, so a written block is the block of rows of the
  whole array Z + b — b made a row, the row repeated down the 50000 rows, the sum, as the host spells it — and the ten
  blocks tile the output.
-/
import proofs.«156341_j20289425506514_1_alg».proof.Proof.Gen.KernelIdeal.Frame
import proofs.«156341_j20289425506514_1_alg».proof.Proof.Gen.ReferenceIdeal.Read
import proofs.«156341_j20289425506514_1_alg».proof.Proof.LibRowVector
import Idealize.ShloMosaic.Lib.Pipeline.Value
import Idealize.ShloMosaic.Lib.ValueIdx
import Idealize.ShloMosaic.PureOps.Ideal.Laws

set_option maxRecDepth 16384

noncomputable section

namespace Cert.KernelIdeal.LogDevBias

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

/-- The whole array `Z + b`, by the host's operations: the bias made a row and repeated down the rows, then added. -/
abbrev biasedSum (Z : Vec Ideal S50000x64 .f32) (b : Vec Ideal S64 .f32) : Vec Ideal S50000x64 .f32 :=
  addf (F := Ideal) (φ := .f32) Z (Cert.ReferenceIdeal.Read.val_main_v82 (F := Ideal) b)

theorem zero_offsets : (![0, 0] : Fin 2 → Nat) = fun _ => 0 := funext fun a => by fin_cases a <;> rfl
theorem zero_offset : (![0] : Fin 1 → Nat) = fun _ => 0 := funext fun a => by fin_cases a; rfl

/-- The host's repeated bias row at `(r, q)` is the bias at `q`. -/
theorem bias_rows_apply (b : Vec Ideal S64 .f32) (r : Fin 50000) (q : Fin 64) :
    Cert.ReferenceIdeal.Read.val_main_v82 (F := Ideal) b (ix2 r q) = b (ix1 q) := by
  rw [Cert.ReferenceIdeal.Read.val_main_v82_apply, Cert.ReferenceIdeal.Read.val_main_v81_apply]
  refine congrArg b ?_
  funext a; match a with | ⟨0, _⟩ => rfl

/-- One entry of what a point computes: with `x0` holding `Z (r, q)` at `(p, q)` and `x1` holding all of `b`, the
    block's entry `(p, q)` is the whole array's entry `(r, q)`: both are `Z (r, q) + b q`. -/
theorem block_entry (Z : Vec Ideal S50000x64 .f32) (b x1 : Vec Ideal S64 .f32) (x0 : Vec Ideal S5000x64 .f32)
    (p : Fin 5000) (q : Fin 64) (r : Fin 50000) (hx : x0 (ix2 p q) = Z (ix2 r q)) (hb : x1 = b) :
    k4_pay1 x0 x1 (ix2 p q) = biasedSum Z b (ix2 r q) := by
  subst hb
  have hk : k4_pay1 x0 x1 (ix2 p q) = x0 (ix2 p q) + x1 (ix1 q) := by
    unfold k4_pay1
    show shapeCast S5000x64 x0 shapeCasts_S5000x64_S5000x64 (ix2 p q)
        + broadcastTo S5000x64 (shapeCast S1x64 x1 shapeCasts_S64_S1x64) broadcasts_S1x64_S5000x64 (ix2 p q) = _
    rw [shapeCast_self, Cert.RowVector.rowBroadcast_apply]
  have hr : biasedSum Z x1 (ix2 r q) = Z (ix2 r q) + x1 (ix1 q) := by
    show Z (ix2 r q) + Cert.ReferenceIdeal.Read.val_main_v82 (F := Ideal) x1 (ix2 r q) = _
    rw [bias_rows_apply]
  rw [hk, hr, hx]

/-- Where the printed index maps put each window's block, decided over the ten grid points. -/
theorem block_places : ∀ t : Fin cfg4.N, win4_0.index t (0 : Fin 2) = win4_2.index t (0 : Fin 2)
    ∧ win4_0.index t (1 : Fin 2) = 0
    ∧ win4_1.index t (0 : Fin 1) = 0
    ∧ win4_2.index t (1 : Fin 2) = 0 ∧ win4_2.index t (0 : Fin 2) ≤ 9 :=
  (by decide +kernel : ∀ t : Fin grid4.N, _)

/-- Every one of the ten block-rows of the output is some point's. -/
theorem every_block_row : ∀ b : Fin 10, ∃ t : Fin cfg4.N, win4_2.index t = ![b.val, 0] :=
  (by decide +kernel : ∀ b : Fin 10, ∃ t : Fin grid4.N, win4_2.index t = ![b.val, 0])

/-- What point `t` writes back is block `t` of `Z + b` of the two arrays as the region finds them. -/
theorem written_eq (c : Dev nD) (t : Fin cfg4.N) :
    (dat4 V c).flushed 2 t = ((cfg4.win 2).blk t).view.read (Elt Ideal) (biasedSum (V c main_v73) (V c main_arg8)) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64) zero_offset]
  obtain ⟨e0, e1, e2, e3, e4⟩ := block_places t
  funext j
  have hj0 : (j 0).val < 5000 := (j 0).isLt
  have hj1 : (j 1).val < 64 := (j 1).isLt
  have hrow_lt : win4_2.index t (0 : Fin 2) * 5000 + 1 * (j 0).val < 50000 := by omega
  have hj : j = ix2 (⟨(j 0).val, hj0⟩ : Fin 5000) (⟨(j 1).val, hj1⟩ : Fin 64) := by
    funext a; match a with | ⟨0, _⟩ => rfl | ⟨1, _⟩ => rfl
  have hi : ((cfg4.win 2).blk t).view.emb j
      = ix2 (⟨win4_2.index t (0 : Fin 2) * 5000 + 1 * (j 0).val, hrow_lt⟩ : Fin 50000) (⟨(j 1).val, hj1⟩ : Fin 64) := by
    funext a; apply Fin.ext
    match a with
    | ⟨0, _⟩ => rfl
    | ⟨1, _⟩ => show win4_2.index t (1 : Fin 2) * 64 + 1 * (j 1).val = (j 1).val; omega
  show k4_pay1 (iblk4 V c 0 t) (iblk4 V c 1 t) j
    = biasedSum (V c main_v73) (V c main_arg8) (((cfg4.win 2).blk t).view.emb j)
  rw [hi]
  refine (congrArg (k4_pay1 (iblk4 V c 0 t) (iblk4 V c 1 t)) hj).trans ?_
  refine block_entry (V c main_v73) (V c main_arg8) (iblk4 V c 1 t) (iblk4 V c 0 t) _ _ _ ?_ ?_
  · show V c main_v73 (((cfg4.win 0).blk t).view.emb (ix2 (⟨(j 0).val, hj0⟩ : Fin 5000) (⟨(j 1).val, hj1⟩ : Fin 64))) = V c main_v73 _
    refine congrArg (V c main_v73) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * (j 1).val = (j 1).val; omega
  · funext y
    show V c main_arg8 (((cfg4.win 1).blk t).view.emb y) = V c main_arg8 y
    refine congrArg (V c main_arg8) ?_
    funext a; apply Fin.ext
    match a with
    | ⟨0, _⟩ => show win4_1.index t (0 : Fin 1) * 64 + 1 * (y 0).val = (y 0).val; omega

/-- An index of the output array is in point `t`'s block iff each coordinate is in the block's range on its axis. -/
theorem in_block_iff (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v75).slice (win4_2.rect t)).set ↔ _
  rw [View.set_slice_whole, Rect.mem_set_unit]
  exact Iff.rfl

/-- The ten blocks tile the output: row `r` is in the block of the point at block-row `r / 5000`. -/
theorem every_index_written (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := every_block_row ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [in_block_iff]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the ten points the output array is `Z + b` of the two arrays the region found. -/
theorem array_eq (c : Dev nD) :
    (dat4 V c).arrAt 2 cfg4.N = biasedSum (V c main_v73) (V c main_arg8) :=
  (dat4 V c).arrAt_eq_of_cover 2 _ (fun t _ => written_eq V c t) every_index_written

end Cert.KernelIdeal.LogDevBias

end
-- ==== Proof.Stages.lean ====
/-
  The reference's stage values, carried through the kernel program's ten segments.

  The kernel program and the reference compute, in the same order:
      M₁ = X · W₁,   Z₁ = aggregate M₁,   H = max (Z₁ + b₁, 0),
      M_mean = H · W_mean,  M_logdev = H · W_logdev,   Z_mean = aggregate M_mean,  Z_logdev = aggregate M_logdev,
      mean = Z_mean + b_mean,   logdev = Z_logdev + b_logdev,
  where "aggregate M" gathers the rows of M at the edges' sources, scales row e by the edge's normalisation coefficient and
  scatter-adds the rows at the edges' destinations. The reference does every step with a host operation; the kernel program
  does the products and the bias steps in kernel launches, block of rows by block of rows, and the aggregations with the
  same host operations as the reference. A launch's output array is the whole-array result of its step (the five modules
  about the launches); a host stretch applies the reference's own operations to what its buffers hold. So at each boundary
  between segments each buffer that matters holds the reference's stage value of the arguments — proved here boundary by
  boundary — and the two result arrays end at the reference's two results.
-/
import proofs.«156341_j20289425506514_1_alg».proof.Proof.EntryValues
import proofs.«156341_j20289425506514_1_alg».proof.Proof.HiddenProduct
import proofs.«156341_j20289425506514_1_alg».proof.Proof.HiddenBias
import proofs.«156341_j20289425506514_1_alg».proof.Proof.HeadProducts
import proofs.«156341_j20289425506514_1_alg».proof.Proof.MeanBias
import proofs.«156341_j20289425506514_1_alg».proof.Proof.LogDevBias

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, wherever a launch reads one: no segment before it writes an argument -/

/-- The first piece of the entry stretch (sources, destinations, weights, degrees) writes none of the arguments the
    launches read. -/
theorem entry_piece1_keeps (U : Valuation τ sig (Elt Ideal)) :
    StableHlo.after hostOps0 U (Proc.devRef .tc main_arg0) = U (Proc.devRef .tc main_arg0)
    ∧ StableHlo.after hostOps0 U (Proc.devRef .tc main_arg3) = U (Proc.devRef .tc main_arg3)
    ∧ StableHlo.after hostOps0 U (Proc.devRef .tc main_arg4) = U (Proc.devRef .tc main_arg4)
    ∧ StableHlo.after hostOps0 U (Proc.devRef .tc main_arg5) = U (Proc.devRef .tc main_arg5)
    ∧ StableHlo.after hostOps0 U (Proc.devRef .tc main_arg6) = U (Proc.devRef .tc main_arg6)
    ∧ StableHlo.after hostOps0 U (Proc.devRef .tc main_arg7) = U (Proc.devRef .tc main_arg7)
    ∧ StableHlo.after hostOps0 U (Proc.devRef .tc main_arg8) = U (Proc.devRef .tc main_arg8) := by
  refine ⟨?_, ?_, ?_, ?_, ?_, ?_, ?_⟩ <;> (after_results <;> rfl)

/-- Nor does the selection. -/
theorem entry_piece2_keeps (U : Valuation τ sig (Elt Ideal)) :
    StableHlo.after hostOps0_1 U (Proc.devRef .tc main_arg0) = U (Proc.devRef .tc main_arg0)
    ∧ StableHlo.after hostOps0_1 U (Proc.devRef .tc main_arg3) = U (Proc.devRef .tc main_arg3)
    ∧ StableHlo.after hostOps0_1 U (Proc.devRef .tc main_arg4) = U (Proc.devRef .tc main_arg4)
    ∧ StableHlo.after hostOps0_1 U (Proc.devRef .tc main_arg5) = U (Proc.devRef .tc main_arg5)
    ∧ StableHlo.after hostOps0_1 U (Proc.devRef .tc main_arg6) = U (Proc.devRef .tc main_arg6)
    ∧ StableHlo.after hostOps0_1 U (Proc.devRef .tc main_arg7) = U (Proc.devRef .tc main_arg7)
    ∧ StableHlo.after hostOps0_1 U (Proc.devRef .tc main_arg8) = U (Proc.devRef .tc main_arg8) := by
  refine ⟨?_, ?_, ?_, ?_, ?_, ?_, ?_⟩ <;> (after_results <;> rfl)

/-- Nor do the coefficients. -/
theorem entry_piece3_keeps (U : Valuation τ sig (Elt Ideal)) :
    StableHlo.after hostOps0_2 U (Proc.devRef .tc main_arg0) = U (Proc.devRef .tc main_arg0)
    ∧ StableHlo.after hostOps0_2 U (Proc.devRef .tc main_arg3) = U (Proc.devRef .tc main_arg3)
    ∧ StableHlo.after hostOps0_2 U (Proc.devRef .tc main_arg4) = U (Proc.devRef .tc main_arg4)
    ∧ StableHlo.after hostOps0_2 U (Proc.devRef .tc main_arg5) = U (Proc.devRef .tc main_arg5)
    ∧ StableHlo.after hostOps0_2 U (Proc.devRef .tc main_arg6) = U (Proc.devRef .tc main_arg6)
    ∧ StableHlo.after hostOps0_2 U (Proc.devRef .tc main_arg7) = U (Proc.devRef .tc main_arg7)
    ∧ StableHlo.after hostOps0_2 U (Proc.devRef .tc main_arg8) = U (Proc.devRef .tc main_arg8) := by
  refine ⟨?_, ?_, ?_, ?_, ?_, ?_, ?_⟩ <;> (after_results <;> rfl)

/-- So at the first launch's entry those arguments are as launched. -/
theorem args_3 (c : Dev nD) :
    W3 m ρ c (Proc.devRef .tc main_arg0) = m ((c.tc : Thread nD τ).loc main_arg0)
    ∧ W3 m ρ c (Proc.devRef .tc main_arg3) = m ((c.tc : Thread nD τ).loc main_arg3)
    ∧ W3 m ρ c (Proc.devRef .tc main_arg4) = m ((c.tc : Thread nD τ).loc main_arg4)
    ∧ W3 m ρ c (Proc.devRef .tc main_arg5) = m ((c.tc : Thread nD τ).loc main_arg5)
    ∧ W3 m ρ c (Proc.devRef .tc main_arg6) = m ((c.tc : Thread nD τ).loc main_arg6)
    ∧ W3 m ρ c (Proc.devRef .tc main_arg7) = m ((c.tc : Thread nD τ).loc main_arg7)
    ∧ W3 m ρ c (Proc.devRef .tc main_arg8) = m ((c.tc : Thread nD τ).loc main_arg8) := by
  have p1 := entry_piece1_keeps (W0 m ρ c)
  have p2 := entry_piece2_keeps (W1 m ρ c)
  have p3 := entry_piece3_keeps (W2 m ρ c)
  exact ⟨p3.1.trans (p2.1.trans p1.1), p3.2.1.trans (p2.2.1.trans p1.2.1), p3.2.2.1.trans (p2.2.2.1.trans p1.2.2.1),
    p3.2.2.2.1.trans (p2.2.2.2.1.trans p1.2.2.2.1), p3.2.2.2.2.1.trans (p2.2.2.2.2.1.trans p1.2.2.2.2.1),
    p3.2.2.2.2.2.1.trans (p2.2.2.2.2.2.1.trans p1.2.2.2.2.2.1), p3.2.2.2.2.2.2.trans (p2.2.2.2.2.2.2.trans p1.2.2.2.2.2.2)⟩

/-- The first aggregation's host operations, from whatever the buffers hold before them, leave the later arguments and
    the edge bookkeeping alone. -/
theorem aggregation1_keeps (U : Valuation τ sig (Elt Ideal)) :
    StableHlo.after hostOps1 U (Proc.devRef .tc main_arg4) = U (Proc.devRef .tc main_arg4)
    ∧ StableHlo.after hostOps1 U (Proc.devRef .tc main_arg5) = U (Proc.devRef .tc main_arg5)
    ∧ StableHlo.after hostOps1 U (Proc.devRef .tc main_arg6) = U (Proc.devRef .tc main_arg6)
    ∧ StableHlo.after hostOps1 U (Proc.devRef .tc main_arg7) = U (Proc.devRef .tc main_arg7)
    ∧ StableHlo.after hostOps1 U (Proc.devRef .tc main_arg8) = U (Proc.devRef .tc main_arg8)
    ∧ StableHlo.after hostOps1 U (Proc.devRef .tc main_v5) = U (Proc.devRef .tc main_v5)
    ∧ StableHlo.after hostOps1 U (Proc.devRef .tc main_v6) = U (Proc.devRef .tc main_v6)
    ∧ StableHlo.after hostOps1 U (Proc.devRef .tc main_v31) = U (Proc.devRef .tc main_v31) := by
  refine ⟨?_, ?_, ?_, ?_, ?_, ?_, ?_, ?_⟩ <;> (after_results <;> rfl)

/-- The two later aggregations' host operations leave the last two biases alone. -/
theorem aggregations2_keep (U : Valuation τ sig (Elt Ideal)) :
    StableHlo.after hostOps3 U (Proc.devRef .tc main_arg6) = U (Proc.devRef .tc main_arg6)
    ∧ StableHlo.after hostOps3 U (Proc.devRef .tc main_arg8) = U (Proc.devRef .tc main_arg8) := by
  refine ⟨?_, ?_⟩ <;> (after_results <;> rfl)

/-! ## The first dense layer: M₁ = X · W₁ -/

theorem product1_4 (c : Dev nD) :
    W4 m ρ c (Proc.devRef .tc main_v32)
      = Cert.ReferenceIdeal.Read.val_main_v32 (F := Ideal) (m ((c.tc : Thread nD τ).loc main_arg0)) (m ((c.tc : Thread nD τ).loc main_arg3)) := by
  refine (W4_arr m ρ c 2).trans ?_
  refine (Cert.KernelIdeal.HiddenProduct.array_eq (V3 m ρ) c).trans ?_
  show Cert.KernelIdeal.HiddenProduct.wholeProduct (W3 m ρ c (Proc.devRef .tc main_arg0)) (W3 m ρ c (Proc.devRef .tc main_arg3)) = _
  rw [(args_3 m ρ c).1, (args_3 m ρ c).2.1]
  rfl

/-- The first launch writes only its own output. -/
theorem kept_4 (c : Dev nD) :
    W4 m ρ c (Proc.devRef .tc main_v5) = W3 m ρ c (Proc.devRef .tc main_v5)
    ∧ W4 m ρ c (Proc.devRef .tc main_v6) = W3 m ρ c (Proc.devRef .tc main_v6)
    ∧ W4 m ρ c (Proc.devRef .tc main_v31) = W3 m ρ c (Proc.devRef .tc main_v31)
    ∧ W4 m ρ c (Proc.devRef .tc main_arg4) = W3 m ρ c (Proc.devRef .tc main_arg4)
    ∧ W4 m ρ c (Proc.devRef .tc main_arg5) = W3 m ρ c (Proc.devRef .tc main_arg5)
    ∧ W4 m ρ c (Proc.devRef .tc main_arg6) = W3 m ρ c (Proc.devRef .tc main_arg6)
    ∧ W4 m ρ c (Proc.devRef .tc main_arg7) = W3 m ρ c (Proc.devRef .tc main_arg7)
    ∧ W4 m ρ c (Proc.devRef .tc main_arg8) = W3 m ρ c (Proc.devRef .tc main_arg8) :=
  ⟨W4_of_ne m ρ c main_v5 (by decide), W4_of_ne m ρ c main_v6 (by decide), W4_of_ne m ρ c main_v31 (by decide),
   W4_of_ne m ρ c main_arg4 (by decide), W4_of_ne m ρ c main_arg5 (by decide), W4_of_ne m ρ c main_arg6 (by decide),
   W4_of_ne m ρ c main_arg7 (by decide), W4_of_ne m ρ c main_arg8 (by decide)⟩

/-! ## The first aggregation: Z₁ = aggregate M₁ -/

set_option maxHeartbeats 1000000 in
theorem aggregate1_5 (c : Dev nD) :
    W5 m ρ c (Proc.devRef .tc main_v45)
      = Cert.ReferenceIdeal.Read.val_main_v45 (F := Ideal) (m ((c.tc : Thread nD τ).loc main_arg0)) (m ((c.tc : Thread nD τ).loc main_arg1))
          (m ((c.tc : Thread nD τ).loc main_arg2)) (m ((c.tc : Thread nD τ).loc main_arg3)) := by
  have h32 := product1_4 m ρ c
  have h5 := ((kept_4 m ρ c).1).trans (Cert.KernelIdeal.EntryValues.sources_3 m ρ c)
  have h6 := ((kept_4 m ρ c).2.1).trans (Cert.KernelIdeal.EntryValues.destinations_3 m ρ c)
  have h31 := ((kept_4 m ρ c).2.2.1).trans (Cert.KernelIdeal.EntryValues.coefficients_3 m ρ c)
  show StableHlo.after hostOps1 (W4 m ρ c) (Proc.devRef .tc main_v45) = _
  generalize W4 m ρ c = U at h32 h5 h6 h31 ⊢
  after_results_simp
  rw [h32, h5, h6, h31]
  rfl

theorem bias1_5 (c : Dev nD) :
    W5 m ρ c (Proc.devRef .tc main_arg4) = m ((c.tc : Thread nD τ).loc main_arg4) :=
  ((aggregation1_keeps (W4 m ρ c)).1).trans (((kept_4 m ρ c).2.2.2.1).trans (args_3 m ρ c).2.2.1)

/-! ## The hidden layer: H = max (Z₁ + b₁, 0) -/

theorem hidden_6 (c : Dev nD) :
    W6 m ρ c (Proc.devRef .tc main_v46)
      = Cert.ReferenceIdeal.Read.val_main_v49 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W6_arr m ρ c 2).trans ?_
  refine (Cert.KernelIdeal.HiddenBias.array_eq (V5 m ρ) c).trans ?_
  show Cert.KernelIdeal.HiddenBias.clampedSum (W5 m ρ c (Proc.devRef .tc main_v45)) (W5 m ρ c (Proc.devRef .tc main_arg4)) = _
  rw [aggregate1_5 m ρ c, bias1_5 m ρ c]
  rfl

/-- What the second launch's entry still holds of the edge bookkeeping and of the later arguments. -/
theorem kept_6 (c : Dev nD) :
    W6 m ρ c (Proc.devRef .tc main_v5) = Cert.ReferenceIdeal.Read.val_main_v5 (F := Ideal) (m ((c.tc : Thread nD τ).loc main_arg1))
    ∧ W6 m ρ c (Proc.devRef .tc main_v6) = Cert.ReferenceIdeal.Read.val_main_v6 (F := Ideal) (m ((c.tc : Thread nD τ).loc main_arg1))
    ∧ W6 m ρ c (Proc.devRef .tc main_v31) = Cert.ReferenceIdeal.Read.val_main_v31 (F := Ideal) (m ((c.tc : Thread nD τ).loc main_arg1)) (m ((c.tc : Thread nD τ).loc main_arg2))
    ∧ W6 m ρ c (Proc.devRef .tc main_arg5) = m ((c.tc : Thread nD τ).loc main_arg5)
    ∧ W6 m ρ c (Proc.devRef .tc main_arg6) = m ((c.tc : Thread nD τ).loc main_arg6)
    ∧ W6 m ρ c (Proc.devRef .tc main_arg7) = m ((c.tc : Thread nD τ).loc main_arg7)
    ∧ W6 m ρ c (Proc.devRef .tc main_arg8) = m ((c.tc : Thread nD τ).loc main_arg8) := by
  have k := aggregation1_keeps (W4 m ρ c)
  have k4 := kept_4 m ρ c
  have a := args_3 m ρ c
  exact ⟨(W6_of_ne m ρ c main_v5 (by decide)).trans (k.2.2.2.2.2.1.trans (k4.1.trans (Cert.KernelIdeal.EntryValues.sources_3 m ρ c))),
    (W6_of_ne m ρ c main_v6 (by decide)).trans (k.2.2.2.2.2.2.1.trans (k4.2.1.trans (Cert.KernelIdeal.EntryValues.destinations_3 m ρ c))),
    (W6_of_ne m ρ c main_v31 (by decide)).trans (k.2.2.2.2.2.2.2.trans (k4.2.2.1.trans (Cert.KernelIdeal.EntryValues.coefficients_3 m ρ c))),
    (W6_of_ne m ρ c main_arg5 (by decide)).trans (k.2.1.trans (k4.2.2.2.2.1.trans a.2.2.2.1)),
    (W6_of_ne m ρ c main_arg6 (by decide)).trans (k.2.2.1.trans (k4.2.2.2.2.2.1.trans a.2.2.2.2.1)),
    (W6_of_ne m ρ c main_arg7 (by decide)).trans (k.2.2.2.1.trans (k4.2.2.2.2.2.2.1.trans a.2.2.2.2.2.1)),
    (W6_of_ne m ρ c main_arg8 (by decide)).trans (k.2.2.2.2.1.trans (k4.2.2.2.2.2.2.2.trans a.2.2.2.2.2.2))⟩

/-! ## The two heads' dense layers: M_mean = H · W_mean, M_logdev = H · W_logdev -/

theorem product_mean_7 (c : Dev nD) :
    W7 m ρ c (Proc.devRef .tc main_v47_0)
      = Cert.ReferenceIdeal.Read.val_main_v50 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  refine (W7_arr m ρ c 3).trans ?_
  refine (Cert.KernelIdeal.HeadProducts.array_eq_mean (V6 m ρ) c).trans ?_
  show Cert.KernelIdeal.HeadProducts.wholeProduct (W6 m ρ c (Proc.devRef .tc main_v46)) (W6 m ρ c (Proc.devRef .tc main_arg5)) = _
  rw [hidden_6 m ρ c, (kept_6 m ρ c).2.2.2.1]
  rfl

theorem product_logdev_7 (c : Dev nD) :
    W7 m ρ c (Proc.devRef .tc main_v47_1)
      = Cert.ReferenceIdeal.Read.val_main_v67 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg7)) := by
  refine (W7_arr m ρ c 4).trans ?_
  refine (Cert.KernelIdeal.HeadProducts.array_eq_logdev (V6 m ρ) c).trans ?_
  show Cert.KernelIdeal.HeadProducts.wholeProduct (W6 m ρ c (Proc.devRef .tc main_v46)) (W6 m ρ c (Proc.devRef .tc main_arg7)) = _
  rw [hidden_6 m ρ c, (kept_6 m ρ c).2.2.2.2.2.1]
  rfl

/-- The third launch writes only its two outputs. -/
theorem kept_7 (c : Dev nD) :
    W7 m ρ c (Proc.devRef .tc main_v5) = Cert.ReferenceIdeal.Read.val_main_v5 (F := Ideal) (m ((c.tc : Thread nD τ).loc main_arg1))
    ∧ W7 m ρ c (Proc.devRef .tc main_v6) = Cert.ReferenceIdeal.Read.val_main_v6 (F := Ideal) (m ((c.tc : Thread nD τ).loc main_arg1))
    ∧ W7 m ρ c (Proc.devRef .tc main_v31) = Cert.ReferenceIdeal.Read.val_main_v31 (F := Ideal) (m ((c.tc : Thread nD τ).loc main_arg1)) (m ((c.tc : Thread nD τ).loc main_arg2))
    ∧ W7 m ρ c (Proc.devRef .tc main_arg6) = m ((c.tc : Thread nD τ).loc main_arg6)
    ∧ W7 m ρ c (Proc.devRef .tc main_arg8) = m ((c.tc : Thread nD τ).loc main_arg8) :=
  ⟨(W7_of_ne m ρ c main_v5 (by decide)).trans (kept_6 m ρ c).1,
   (W7_of_ne m ρ c main_v6 (by decide)).trans (kept_6 m ρ c).2.1,
   (W7_of_ne m ρ c main_v31 (by decide)).trans (kept_6 m ρ c).2.2.1,
   (W7_of_ne m ρ c main_arg6 (by decide)).trans (kept_6 m ρ c).2.2.2.2.1,
   (W7_of_ne m ρ c main_arg8 (by decide)).trans (kept_6 m ρ c).2.2.2.2.2.2⟩

/-! ## The two later aggregations: Z_mean = aggregate M_mean, Z_logdev = aggregate M_logdev -/

set_option maxHeartbeats 1000000 in
theorem aggregate_mean_8 (c : Dev nD) :
    W8 m ρ c (Proc.devRef .tc main_v60)
      = Cert.ReferenceIdeal.Read.val_main_v63 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  have hM := product_mean_7 m ρ c
  have h5 := (kept_7 m ρ c).1
  have h6 := (kept_7 m ρ c).2.1
  have h31 := (kept_7 m ρ c).2.2.1
  show StableHlo.after hostOps3 (W7 m ρ c) (Proc.devRef .tc main_v60) = _
  generalize W7 m ρ c = U at hM h5 h6 h31 ⊢
  after_results_simp
  rw [hM, h5, h6, h31]
  rfl

set_option maxHeartbeats 1000000 in
theorem aggregate_logdev_8 (c : Dev nD) :
    W8 m ρ c (Proc.devRef .tc main_v73)
      = Cert.ReferenceIdeal.Read.val_main_v80 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg7)) := by
  have hM := product_logdev_7 m ρ c
  have h5 := (kept_7 m ρ c).1
  have h6 := (kept_7 m ρ c).2.1
  have h31 := (kept_7 m ρ c).2.2.1
  show StableHlo.after hostOps3 (W7 m ρ c) (Proc.devRef .tc main_v73) = _
  generalize W7 m ρ c = U at hM h5 h6 h31 ⊢
  after_results_simp
  rw [hM, h5, h6, h31]
  rfl

theorem biases_8 (c : Dev nD) :
    W8 m ρ c (Proc.devRef .tc main_arg6) = m ((c.tc : Thread nD τ).loc main_arg6)
    ∧ W8 m ρ c (Proc.devRef .tc main_arg8) = m ((c.tc : Thread nD τ).loc main_arg8) :=
  ⟨((aggregations2_keep (W7 m ρ c)).1).trans (kept_7 m ρ c).2.2.2.1,
   ((aggregations2_keep (W7 m ρ c)).2).trans (kept_7 m ρ c).2.2.2.2⟩

/-! ## The two results: mean = Z_mean + b_mean, logdev = Z_logdev + b_logdev -/

theorem mean_9 (c : Dev nD) :
    W9 m ρ c (Proc.devRef .tc main_v74)
      = Cert.ReferenceIdeal.Read.val_main_v66 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (W9_arr m ρ c 2).trans ?_
  refine (Cert.KernelIdeal.MeanBias.array_eq (V8 m ρ) c).trans ?_
  show Cert.KernelIdeal.MeanBias.biasedSum (W8 m ρ c (Proc.devRef .tc main_v60)) (W8 m ρ c (Proc.devRef .tc main_arg6)) = _
  rw [aggregate_mean_8 m ρ c, (biases_8 m ρ c).1]
  rfl

theorem logdev_10 (c : Dev nD) :
    W10 m ρ c (Proc.devRef .tc main_v75)
      = Cert.ReferenceIdeal.Read.val_main_v83 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg7)) (m ((c.tc : Thread nD τ).loc main_arg8)) := by
  refine (W10_arr m ρ c 2).trans ?_
  refine (Cert.KernelIdeal.LogDevBias.array_eq (V9 m ρ) c).trans ?_
  show Cert.KernelIdeal.LogDevBias.biasedSum (W9 m ρ c (Proc.devRef .tc main_v73)) (W9 m ρ c (Proc.devRef .tc main_arg8)) = _
  rw [(W9_of_ne m ρ c main_v73 (by decide)).trans (aggregate_logdev_8 m ρ c),
    (W9_of_ne m ρ c main_arg8 (by decide)).trans (biases_8 m ρ c).2]
  rfl

/-- The last launch writes only the log-deviation result: the mean result stays. -/
theorem mean_10 (c : Dev nD) :
    W10 m ρ c (Proc.devRef .tc main_v74)
      = Cert.ReferenceIdeal.Read.val_main_v66 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  (W10_of_ne m ρ c main_v74 (by decide)).trans (mean_9 m ρ c)

end Cert.KernelIdeal.Stages

end
-- ==== Proof.lean ====
/-
  The certificate: a two-layer graph-convolution encoder — X·W₁ aggregated over the edges, biased and clamped at zero, then
  two heads H·W aggregated and biased — computed with five kernel launches among host operations, against the same encoder
  computed by host operations alone.

  Read on the extended reals, where a change of float format is the identity, the two programs apply the same operations to
  the same values in the same order; they differ only in that the kernel program forms each matrix product and each bias
  step block of rows by block of rows. A block of rows of a product, or of a sum with a bias row, is the product, or the
  sum, of that block of rows; the blocks tile the arrays; so every intermediate array and both results coincide. No
  finiteness of the inputs is used: nothing is distributed, cancelled or reordered.

  The three frame claims are the generated frames (the reference's is its run with the results dropped); the idealization
  rewrote nothing; the algebraic claim pairs the kernel program's run, its two result arrays read as the reference's stage
  values, with the reference's run.
-/
import proofs.«156341_j20289425506514_1_alg».proof.Defs
import proofs.«156341_j20289425506514_1_alg».proof.Proof.Gen.Kernel
import proofs.«156341_j20289425506514_1_alg».proof.Proof.Gen.Kernel.Skeleton
import proofs.«156341_j20289425506514_1_alg».proof.Proof.Gen.Kernel.Launch
import proofs.«156341_j20289425506514_1_alg».proof.Proof.Gen.Kernel.Points
import proofs.«156341_j20289425506514_1_alg».proof.Proof.Gen.Kernel.Frame
import proofs.«156341_j20289425506514_1_alg».proof.Proof.Gen.KernelIdeal
import proofs.«156341_j20289425506514_1_alg».proof.Proof.Gen.KernelIdeal.Skeleton
import proofs.«156341_j20289425506514_1_alg».proof.Proof.Gen.KernelIdeal.Launch
import proofs.«156341_j20289425506514_1_alg».proof.Proof.Gen.KernelIdeal.Points
import proofs.«156341_j20289425506514_1_alg».proof.Proof.Gen.KernelIdeal.Frame
import proofs.«156341_j20289425506514_1_alg».proof.Proof.Gen.ReferenceIdeal
import proofs.«156341_j20289425506514_1_alg».proof.Proof.Gen.Pre_finite_inputs
import proofs.«156341_j20289425506514_1_alg».proof.Proof.Gen.ReferenceIdeal.Run
import proofs.«156341_j20289425506514_1_alg».proof.Proof.Gen.ReferenceIdeal.Read
import proofs.«156341_j20289425506514_1_alg».proof.Proof.WholeRun
import proofs.«156341_j20289425506514_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference's frame is its run with the two results dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both runs end with the two results at the reference's stage values of the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.ReferenceIdeal.Read.val_main_v83 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.mean_10 m ρ c),
        (h c).2.1.trans (Cert.KernelIdeal.Stages.logdev_10 m ρ c), (h c).2.2⟩)
      (Cert.KernelIdeal.WholeRun.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v66_eq, (hagree c).1, (hagree c).2.1, (hagree c).2.2.1,
        (hagree c).2.2.2.1, (hagree c).2.2.2.2.1, (hagree c).2.2.2.2.2.1, (hagree c).2.2.2.2.2.2.1]
    · rw [(h c).2.1, Cert.ReferenceIdeal.Read.val_main_v83_eq, (hagree c).1, (hagree c).2.1, (hagree c).2.2.1,
        (hagree c).2.2.2.1, (hagree c).2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
